-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S16x256x1 : Shape := ⟨3, ![16, 256, 1]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S16x256x1 : S_.BroadcastsInDim S16x256x1 (![] : Fin 0 → Fin S16x256x1.rank)
  reducesTo_S16x256x1_S_d0_1_2 : S16x256x1.ReducesTo [0, 1, 2] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : IVec S800000 32) (main_arg3 : FVec F S16x256x1 .f32) (main_arg4 : FVec F S256x1 .f32) (main_arg5 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S16x256x1 .f32 := Host.absf main_arg3
  let main_cst_0 : FVec F S_ .f32 := constant S_ .f32 0x7F800000#32
  let main_v5 : FVec F S16x256x1 .f32 := broadcastInDim S16x256x1 ![] bcast_S_S16x256x1 main_cst_0
  let main_v6 : IVec S16x256x1 1 := cmpf .olt main_v4 main_v5
  let main_c_1 : IVec S_ 1 := constantI S_ 1 1#1
  let main_v7 : IVec S_ 1 := (fun x v => Host.reduce IntOp.andi x v reducesTo_S16x256x1_S_d0_1_2 h_S_) main_v6 main_c_1
  let main_v8 : IVec S_ 1 := andi main_v3 main_v7
  let main_v9 : FVec F S256x1 .f32 := Host.absf main_arg4
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S800000 : Shape := ⟨1, ![800000]⟩
abbrev S16x256x1 : Shape := ⟨3, ![16, 256, 1]⟩
abbrev S256x1 : Shape := ⟨2, ![256, 1]⟩
abbrev S1 : Shape := ⟨1, ![1]⟩
abbrev S1x800000 : Shape := ⟨2, ![1, 800000]⟩
abbrev S16x256 : Shape := ⟨2, ![16, 256]⟩
abbrev S256x16 : Shape := ⟨2, ![256, 16]⟩
abbrev S256x17 : Shape := ⟨2, ![256, 17]⟩
abbrev S50000x17 : Shape := ⟨2, ![50000, 17]⟩
abbrev S2000x256 : Shape := ⟨2, ![2000, 256]⟩
abbrev S2000x17 : Shape := ⟨2, ![2000, 17]⟩
abbrev S50000x16 : Shape := ⟨2, ![50000, 16]⟩
abbrev S50000x1 : Shape := ⟨2, ![50000, 1]⟩
abbrev S50000 : Shape := ⟨1, ![50000]⟩
abbrev S_ : Shape := ⟨0, ![]⟩
abbrev S800000x1 : Shape := ⟨2, ![800000, 1]⟩
abbrev S800000x2 : Shape := ⟨2, ![800000, 2]⟩
abbrev S2000x1 : Shape := ⟨2, ![2000, 1]⟩

abbrev nBuf : Space → Nat
  | .hbm => 57
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .i32⟩
  | .hbm, ⟨3, _⟩ => ⟨S16x256x1, .f32⟩
  | .hbm, ⟨4, _⟩ => ⟨S256x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S16x256, .f32⟩
  | .hbm, ⟨11, _⟩ => ⟨S256x16, .f32⟩
  | .hbm, ⟨12, _⟩ => ⟨S256x17, .f32⟩
  | .hbm, ⟨13, _⟩ => ⟨S50000x17, .f32⟩
  | .hbm, ⟨14, _⟩ => ⟨S50000x16, .f32⟩
  | .hbm, ⟨15, _⟩ => ⟨S50000x1, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x1, .i32⟩
  | .hbm, ⟨33, _⟩ => ⟨S800000x2, .i32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x256, .f32⟩
  | .hbm, ⟨55, _⟩ => ⟨S50000x1, .f32⟩
  | .hbm, ⟨56, _⟩ => ⟨S50000, .f32⟩
  | .local _ .vmem, ⟨0, _⟩ => ⟨S2000x256, .f32⟩
  | .local _ .vmem, ⟨1, _⟩ => ⟨S2000x256, .f32⟩
  | .local _ .vmem, ⟨2, _⟩ => ⟨S256x17, .f32⟩
  | .local _ .vmem, ⟨3, _⟩ => ⟨S2000x17, .f32⟩
  | .local _ .vmem, ⟨4, _⟩ => ⟨S2000x17, .f32⟩
  | .local _ .vmem, ⟨5, _⟩ => ⟨S2000x256, .f32⟩
  | .local _ .vmem, ⟨6, _⟩ => ⟨S2000x256, .f32⟩
  | .local _ .vmem, ⟨7, _⟩ => ⟨S2000x1, .f32⟩
  | .local _ .vmem, ⟨8, _⟩ => ⟨S2000x1, .f32⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40_0 : Ref sig .tc := ⟨.hbm, 54, rfl⟩
abbrev main_v40_1 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S16x256x1_S16x256 : S16x256x1.ShapeCasts S16x256
  transposes_S16x256_S256x16_1_0 : S16x256.Transposes [1, 0] S256x16
  concatenates_S256x16_S256x1_S256x17_d1 : Shape.Concatenates [S256x16, S256x1] S256x17 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x17_S256x17_0_0 : ∀ a, (![0, 0] : Fin 2 → Nat) a + S256x17.size a ≤ S256x17.size a
  h_S256x17 : 0 < S256x17.numel
  shapeCasts_S256x17_S256x17 : S256x17.ShapeCasts S256x17
  inb_S2000x17_S2000x17_0_0 : ∀ a, (![0, 0] : Fin 2 → Nat) a + S2000x17.size a ≤ S2000x17.size a
  h_S2000x17 : 0 < S2000x17.numel
  slices_S50000x17_S50000x16_0_0 : S50000x17.Slices ![0, 0] S50000x16
  slices_S50000x17_S50000x1_0_16 : S50000x17.Slices ![0, 16] S50000x1
  shapeCasts_S50000x1_S50000 : S50000x1.ShapeCasts S50000
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S_S50000 : S_.BroadcastsInDim S50000 (![] : Fin 0 → Fin S50000.rank)
  shapeCasts_S1_S_ : S1.ShapeCasts S_
  bcast_S50000_S50000x1_0 : S50000.BroadcastsInDim S50000x1 (![0] : Fin 1 → Fin S50000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  dot_S2000x256_S256x17_S2000x17_1_0_0_1_n_n_wf : DotDims.WF S2000x256 S256x17 S2000x17 [1] [0] [0] [1] [] []
  gather_S50000x16_S800000x2_S800000_n_01_n_n_01_1_11_wf : GatherDims.WF S50000x16 S800000x2 S800000 [] [0, 1] [] [0, 1] [] 1 ![1, 1]
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x17.size a ≤ S256x17.size a
  hwx0_1 : ∀ i : grid0.Coords, EltTy.bits .f32 = 32 ∨ (Rect.block (s := S256x17) S256x17.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x17.size a ≤ S50000x17.size a
  hwx0_2 : ∀ i : grid0.Coords, EltTy.bits .f32 = 32 ∨ (Rect.block (s := S50000x17) S2000x17.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)

variable [Facts₀]

def dot_S2000x256_S256x17_S2000x17_1_0_0_1_n_n : DotDims S2000x256 S256x17 S2000x17 where
  lhsContracting := [1]
  rhsContracting := [0]
  lhsNonContracting := [0]
  rhsNonContracting := [1]
  lhsBatch := []
  rhsBatch := []
  wf := dot_S2000x256_S256x17_S2000x17_1_0_0_1_n_n_wf
def gather_S50000x16_S800000x2_S800000_n_01_n_n_01_1_11 : GatherDims S50000x16 S800000x2 S800000 where
  offsetDims := []
  collapsedSliceDims := [0, 1]
  operandBatchingDims := []
  startIndicesBatchingDims := []
  startIndexMap := [0, 1]
  indexVectorDim := 1
  sliceSizes := ![1, 1]
  wf := gather_S50000x16_S800000x2_S800000_n_01_n_n_01_1_11_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x17.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40_0) S2000x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40_1) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S16x256x1 : Shape := ⟨3, ![16, 256, 1]⟩
abbrev S256x1 : Shape := ⟨2, ![256, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x2 : Shape := ⟨2, ![800000, 2]⟩
abbrev S800000x256 : Shape := ⟨2, ![800000, 256]⟩
abbrev S50000 : Shape := ⟨1, ![50000]⟩
abbrev S50000x1 : Shape := ⟨2, ![50000, 1]⟩

abbrev nBuf : Space → Nat
  | .hbm => 60
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .i32⟩
  | .hbm, ⟨3, _⟩ => ⟨S16x256x1, .f32⟩
  | .hbm, ⟨4, _⟩ => ⟨S256x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x1, .i32⟩
  | .hbm, ⟨22, _⟩ => ⟨S800000x2, .i32⟩
  | .hbm, ⟨23, _⟩ => ⟨S800000x256, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S800000x256, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x256, .f32⟩
  | .hbm, ⟨59, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  reducesTo_S800000x256_S800000_d1 : S800000x256.ReducesTo [1] S800000
  h_S_ : 0 < S_.numel
  bcast_S_S50000 : S_.BroadcastsInDim S50000 (![] : Fin 0 → Fin S50000.rank)
  shapeCasts_S50000x1_S50000 : S50000x1.ShapeCasts S50000
  shapeCasts_S1_S_ : S1.ShapeCasts S_
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  gather_S16x256x1_S800000x2_S800000x256_1_02_n_n_02_1_12561_wf : GatherDims.WF S16x256x1 S800000x2 S800000x256 [1] [0, 2] [] [0, 2] [] 1 ![1, 256, 1]
  gather_S50000x256_S800000x1_S800000x256_1_0_n_n_0_1_1256_wf : GatherDims.WF S50000x256 S800000x1 S800000x256 [1] [0] [] [0] [] 1 ![1, 256]
  scatter_S50000_S800000x1_S800000_n_0_0_1_wf : ScatterDims.WF S50000 S800000x1 S800000 [] [0] [0] 1
  dot_S50000x256_S256x1_S50000x1_1_0_0_1_n_n_wf : DotDims.WF S50000x256 S256x1 S50000x1 [1] [0] [0] [1] [] []

variable [Facts₀]

def gather_S16x256x1_S800000x2_S800000x256_1_02_n_n_02_1_12561 : GatherDims S16x256x1 S800000x2 S800000x256 where
  offsetDims := [1]
  collapsedSliceDims := [0, 2]
  operandBatchingDims := []
  startIndicesBatchingDims := []
  startIndexMap := [0, 2]
  indexVectorDim := 1
  sliceSizes := ![1, 256, 1]
  wf := gather_S16x256x1_S800000x2_S800000x256_1_02_n_n_02_1_12561_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The idealized kernel program's run with its two RESULT buffers named.

  The program is five segments: host operations, the projection call, host operations, the scaling call, one last
  host reshape. The buffer contents at the five boundaries are a fold from the launch memory (`W0` … `W5` of the
  generated frame module). Every weakly fair execution terminates, without a fault, with every unscoped buffer at the
  last boundary's contents `W5`; so the two results end at `W5` read at their buffers, and the six arguments at their
  launch contents.
-/
import proofs.«117722_j22179211117211_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the two results at the last boundary's contents and
    the arguments as launched. -/
theorem run_named : θ_run defs (onTc (τ := τ) (main (F := F))) ⟨m, fun _ => 0, ρ⟩ (fun r => ∀ c : Dev nD,
      r.2.mem ((c.tc : Thread nD τ).loc main_v40_0) = W5 m ρ c (Proc.devRef .tc main_v40_0)
      ∧ r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40_0 (by decide)),
       h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.HandRun

end
-- ==== Proof.Tail.lean ====
/-
  What both programs do with the per-edge messages, as ONE function.

  Given the message of every edge (`msg`), the destination node of every edge (`dst`), every node's root
  projection (`xroot`) and the bias, the pre-activation score of a node is the mean of the messages arriving at
  it — their scatter-sum divided by the number of arriving edges, at least one — plus its root projection plus
  the bias. Both programs apply exactly these operations; the certificate never opens them.
-/
import proofs.«117722_j22179211117211_1_alg».proof.Proof.Gen.ReferenceIdeal
import Idealize.ShloMosaic.PureOps.Ideal

noncomputable section

namespace Cert.Hand

open Cert.ReferenceIdeal Cert.ReferenceIdeal.Gen Idealize.ShloMosaic

/-- The pre-activation score of every node from the edges' messages. -/
def scoreOf (msg : FVec Ideal S800000 .f32) (dst : IVec S800000 32) (xroot : FVec Ideal S50000 .f32)
    (bias : FVec Ideal S1 .f32) : FVec Ideal S50000 .f32 :=
  addf (addf (Host.divf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst) msg)
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32))))
    xroot)
    (broadcastInDim S50000 ![] bcast_S_S50000 (shapeCast _ bias shapeCasts_S1_S_))

/-- An edge-index array's row (`0`: sources, `1`: destinations) as a flat array. -/
def edgeRow0 (ei : IVec S2x800000 32) : IVec S800000 32 :=
  shapeCast _ (extractStridedSlice S1x800000 ![0, 0] ei slices_S2x800000_S1x800000_0_0) shapeCasts_S1x800000_S800000
def edgeRow1 (ei : IVec S2x800000 32) : IVec S800000 32 :=
  shapeCast _ (extractStridedSlice S1x800000 ![1, 0] ei slices_S2x800000_S1x800000_1_0) shapeCasts_S1x800000_S800000

/-- A negative index counts from the end: `v + n` where `v < 0`, else `v`. -/
def wrapNeg (n : BitVec 32) (v : IVec S800000 32) : IVec S800000 32 :=
  select (cmpi .slt v (broadcastInDim S800000 ![] bcast_S_S800000 (constantI S_ 32 0#32)))
    (addi v (broadcastInDim S800000 ![] bcast_S_S800000 (constantI S_ 32 n))) v

end Cert.Hand

end
-- ==== Proof.KDefs.lean ====
/-
  The values the idealized kernel program's host operations compute around its two calls, as functions.

  Before the projection call the host lays the relation weights out as columns and appends the root weight
  (`wcat`: a [256, 17] matrix). Between the two calls it reads every edge's message out of the projected table
  (`msgK`) and takes the root projection from the table's last column (`xrootK`).
-/
import proofs.«117722_j22179211117211_1_alg».proof.Proof.Gen.KernelIdeal
import proofs.«117722_j22179211117211_1_alg».proof.Proof.Tail

noncomputable section

namespace Cert.KernelIdeal.HostVals

open Cert.KernelIdeal Cert.KernelIdeal.Gen Cert.Hand Idealize.ShloMosaic

/-- The seventeen weight columns: column r < 16 is relation r's weight vector, column 16 the root weight. -/
def wcat (w3 : FVec Ideal S16x256x1 .f32) (root : FVec Ideal S256x1 .f32) : FVec Ideal S256x17 .f32 :=
  concatenate S256x17 1 [⟨S256x16, transpose S256x16 [1, 0] (shapeCast _ w3 shapeCasts_S16x256x1_S16x256) transposes_S16x256_S256x16_1_0⟩,
    ⟨S256x1, root⟩] concatenates_S256x16_S256x1_S256x17_d1

/-- Every edge's message: the projected table at (source node, relation), both indices wrapped when negative. -/
def msgK (z17 : FVec Ideal S50000x17 .f32) (src et : IVec S800000 32) : FVec Ideal S800000 .f32 :=
  Host.gather gather_S50000x16_S800000x2_S800000_n_01_n_n_01_1_11
    (extractStridedSlice S50000x16 ![0, 0] z17 slices_S50000x17_S50000x16_0_0)
    (concatenate S800000x2 1 [⟨S800000x1, broadcastInDim S800000x1 ![0] bcast_S800000_S800000x1_0 (wrapNeg 50000#32 src)⟩,
      ⟨S800000x1, broadcastInDim S800000x1 ![0] bcast_S800000_S800000x1_0 (wrapNeg 16#32 et)⟩] concatenates_S800000x1_S800000x1_S800000x2_d1)

/-- Every node's root projection: the last column of the projected table, flattened. -/
def xrootK (z17 : FVec Ideal S50000x17 .f32) : FVec Ideal S50000 .f32 :=
  shapeCast _ (extractStridedSlice S50000x1 ![0, 16] z17 slices_S50000x17_S50000x1_0_16) shapeCasts_S50000x1_S50000

end Cert.KernelIdeal.HostVals

end
-- ==== Proof.HostMid.lean ====
/-
  The host operations between the idealized kernel program's two calls, composed.

  From any buffer contents before them, the forty operations leave in the score column's buffer one term: the
  shared score function of the edge messages read out of the projected table, the destination row, the table's
  last column, and the bias — laid out as a column.
-/
import proofs.«117722_j22179211117211_1_alg».proof.Proof.Gen.KernelIdeal.Launch
import proofs.«117722_j22179211117211_1_alg».proof.Proof.Tail
import proofs.«117722_j22179211117211_1_alg».proof.Proof.KDefs
import Idealize.ShloMosaic.Lib.StableHlo.Run

set_option maxRecDepth 16384

noncomputable section

namespace Cert.KernelIdeal.HostVals

open Cert.KernelIdeal Cert.KernelIdeal.Gen Cert.Hand
open Idealize.ShloMosaic Idealize.ShloMosaic.TcCoe Idealize.SL.Sem Idealize.ShloMosaic.StableHlo

set_option maxHeartbeats 4000000 in
/-- The score column after the host operations between the two calls, from ANY buffer contents `W` before them:
    the operations' composed term, over the projected table, the two edge rows, the relation indices and the bias. -/
theorem column_after (W : Valuation τ sig (Elt Ideal)) : StableHlo.after hostOps1 W (Proc.devRef .tc main_v39)
    = broadcastInDim S50000x1 ![0] bcast_S50000_S50000x1_0
        (scoreOf (msgK (W (Proc.devRef .tc main_v7)) (W (Proc.devRef .tc main_v1)) (W (Proc.devRef .tc main_arg2)))
          (W (Proc.devRef .tc main_v3))
          (xrootK (W (Proc.devRef .tc main_v7)))
          (W (Proc.devRef .tc main_arg5))) := by
  after_results
  rfl

end Cert.KernelIdeal.HostVals

end
-- ==== Proof.HostK.lean ====
/-
  The idealized kernel program's host operations, read as values.

  Before the projection call the host lays the relation weights out as columns and appends the root weight
  (`wcat`: a [256, 17] matrix) and splits the edge list into its source and destination rows. Between the two
  calls it reads every edge's message out of the projected table (`msgK`), takes the root projection from the last
  column (`xrootK`), and forms the score column. After the scaling call it flattens the score column. Each buffer's
  contents at a boundary is read back through the fold of the operations to the launch memory.
-/
import proofs.«117722_j22179211117211_1_alg».proof.Proof.Gen.KernelIdeal.Frame
import proofs.«117722_j22179211117211_1_alg».proof.Proof.Tail
import proofs.«117722_j22179211117211_1_alg».proof.Proof.KDefs
import proofs.«117722_j22179211117211_1_alg».proof.Proof.HostMid
import Idealize.ShloMosaic.Lib.StableHlo.Run

set_option maxRecDepth 16384

noncomputable section

namespace Cert.KernelIdeal.HostVals

open Cert.KernelIdeal Cert.KernelIdeal.Gen Cert.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the projection call -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results; rfl
theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results; rfl
theorem W1_v6 (c : Dev nD) : W1 m ρ c (Proc.devRef .tc main_v6)
    = wcat (m ((c : Thread nD τ).loc main_arg3)) (m ((c : Thread nD τ).loc main_arg4)) := by
  show StableHlo.after hostOps0 (W0 m ρ c) (Proc.devRef .tc main_v6) = _
  after_results; rfl

/-! ## After the projection call: its result array, and everything else as before it -/

theorem W2_v7 (c : Dev nD) : W2 m ρ c (Proc.devRef .tc main_v7) = (dat0 (V1 m ρ) c).arrAt 2 cfg0.N := W2_arr m ρ c 2
theorem W2_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (W1_arg0 m ρ c)))
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_v1 (c : Dev nD) : W2 m ρ c (Proc.devRef .tc main_v1) = edgeRow0 (m ((c : Thread nD τ).loc main_arg1)) :=
  (W2_of_ne m ρ c main_v1 (by decide)).trans (W1_v1 m ρ c)
theorem W2_v3 (c : Dev nD) : W2 m ρ c (Proc.devRef .tc main_v3) = edgeRow1 (m ((c : Thread nD τ).loc main_arg1)) :=
  (W2_of_ne m ρ c main_v3 (by decide)).trans (W1_v3 m ρ c)

/-! ## Before the scaling call -/

set_option maxHeartbeats 2000000 in
theorem V3_arg0 (c : Dev nD) : V3 m ρ c main_arg0 = m ((c : Thread nD τ).loc main_arg0) := by
  show StableHlo.after hostOps1 (W2 m ρ c) (Proc.devRef .tc main_arg0) = _
  after_results_simp
  exact W2_arg0 m ρ c

/-- The score column the scaling call reads, over the buffers as the projection call left them. -/
theorem V3_v39_raw (c : Dev nD) : V3 m ρ c main_v39
    = broadcastInDim S50000x1 ![0] bcast_S50000_S50000x1_0
        (scoreOf (msgK (W2 m ρ c (Proc.devRef .tc main_v7)) (W2 m ρ c (Proc.devRef .tc main_v1)) (W2 m ρ c (Proc.devRef .tc main_arg2)))
          (W2 m ρ c (Proc.devRef .tc main_v3))
          (xrootK (W2 m ρ c (Proc.devRef .tc main_v7)))
          (W2 m ρ c (Proc.devRef .tc main_arg5))) :=
  column_after (W2 m ρ c)

/-- The same over the launch memory and the projected table. -/
theorem V3_v39 (c : Dev nD) : V3 m ρ c main_v39
    = broadcastInDim S50000x1 ![0] bcast_S50000_S50000x1_0
        (scoreOf (msgK ((dat0 (V1 m ρ) c).arrAt 2 cfg0.N) (edgeRow0 (m ((c : Thread nD τ).loc main_arg1))) (m ((c : Thread nD τ).loc main_arg2)))
          (edgeRow1 (m ((c : Thread nD τ).loc main_arg1)))
          (xrootK ((dat0 (V1 m ρ) c).arrAt 2 cfg0.N))
          (m ((c : Thread nD τ).loc main_arg5))) := by
  rw [V3_v39_raw, W2_v7, W2_v1, W2_v3, W2_arg2, W2_arg5]

/-! ## After the scaling call -/

theorem res0_eq (c : Dev nD) : W5 m ρ c (Proc.devRef .tc main_v40_0) = (dat1 (V3 m ρ) c).arrAt 2 cfg1.N := by
  show StableHlo.after hostOps2 (W4 m ρ c) (Proc.devRef .tc main_v40_0) = _
  after_results
  exact W4_arr m ρ c 2

theorem res1_eq (c : Dev nD) : W5 m ρ c (Proc.devRef .tc main_v41)
    = shapeCast _ ((dat1 (V3 m ρ) c).arrAt 3 cfg1.N) shapeCasts_S50000x1_S50000 := by
  show StableHlo.after hostOps2 (W4 m ρ c) (Proc.devRef .tc main_v41) = _
  after_results
  exact congrArg (fun v => shapeCast _ v shapeCasts_S50000x1_S50000) (W4_arr m ρ c 3)

end Cert.KernelIdeal.HostVals

end
-- ==== Proof.Spec.lean ====
/-
  The mathematics both programs compute, stated once over plain arrays of extended reals.

  A node feature matrix `x : [50000, 256]` is projected through seventeen weight columns
  (`proj`: entry (n, r) is the sum over the 256 features d of x[n, d] · w[d, r]); sixteen of the columns
  are the relation weights and the last one is the root weight. After the per-edge stage the pre-activation
  score is a column `s : [50000, 1]`; the two results are `tanh s` (`tanhCol`) and every row of `x`
  scaled by its node's `tanh` score (`scaled`).
-/
import Idealize.ShloMosaic.PureOps.Ideal
import Idealize.ShloMosaic.Lib.ValueIdx

noncomputable section

open scoped BigOperators

namespace Cert.Hand

open Idealize.ShloMosaic Idealize.ShloMosaic.ValueIdx

/-- A rank-2 array of extended reals with literal extents. -/
abbrev A2 (n0 n1 : Nat) := (⟨2, ![n0, n1]⟩ : Shape).Idx → EReal
/-- A rank-1 array of extended reals with a literal extent. -/
abbrev A1 (n : Nat) := (⟨1, ![n]⟩ : Shape).Idx → EReal

/-- Row `n` of `x` against column `r` of `w`: the sum over the 256 features. -/
def dotRow (x : A2 50000 256) (w : A2 256 17) (n : Fin 50000) (r : Fin 17) : EReal :=
  ∑ k : Fin 256, x (ix2 n k) * w (ix2 k r)

/-- Every node projected through the seventeen weight columns. -/
def proj (x : A2 50000 256) (w : A2 256 17) : A2 50000 17 :=
  fun i => dotRow x w ⟨(i 0).val, idx2_lt0 i⟩ ⟨(i 1).val, idx2_lt1 i⟩

theorem proj_ix2 (x : A2 50000 256) (w : A2 256 17) (n : Fin 50000) (r : Fin 17) :
    proj x w (ix2 n r) = ∑ k : Fin 256, x (ix2 n k) * w (ix2 k r) := rfl

/-- The activation of the score column, entry by entry. -/
def tanhCol (s : A2 50000 1) : A2 50000 1 := fun i => Ideal.tanh (s i)

/-- Each feature row scaled by its node's activated score. -/
def scaled (x : A2 50000 256) (s : A2 50000 1) : A2 50000 256 :=
  fun i => x i * Ideal.tanh (s (ix2 (n0 := 50000) ⟨(i 0).val, idx2_lt0 i⟩ (0 : Fin 1)))

theorem scaled_ix2 (x : A2 50000 256) (s : A2 50000 1) (n : Fin 50000) (d : Fin 256) :
    scaled x s (ix2 n d) = x (ix2 n d) * Ideal.tanh (s (ix2 n (0 : Fin 1))) := rfl

end Cert.Hand

end
-- ==== Proof.Blocks0.lean ====
/-
  Region 0 of the idealized kernel, from blocks to the whole array.

  The body multiplies the [2000, 256] block of the node features (block t: rows 2000·t … 2000·t + 1999) with the whole
  [256, 17] weight into a zero accumulator and stores the [2000, 17] product as block t of the result. On extended
  reals the narrowing to bf16 is the identity, so entry (p, r) of the block is the sum over the 256 features k of
  x[2000·t + p, k] · w[k, r]: block t of the projection `proj x w`. The 25 blocks tile the 50000 rows, so after the
  region the result array is `proj x w`.
-/
import proofs.«117722_j22179211117211_1_alg».proof.Proof.Gen.KernelIdeal.Frame
import proofs.«117722_j22179211117211_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Cert.Hand Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets the body's whole-buffer loads and stores are written with. -/
theorem zero_offsets : (![0, 0] : Fin 2 → Nat) = fun _ => 0 := funext fun a => by fin_cases a <;> rfl

/-! ## The contraction's operand indices

The matmul contracts axis 1 of the [2000,256] block with axis 0 of the [256,17] weight: at output index (p, r) and
contraction index k the operands are read at (p, k) and (k, r). -/

theorem lhs_row (i : S2000x17.Idx) (q : dot_S2000x256_S256x17_S2000x17_1_0_0_1_n_n.contr.Idx) :
    (dot_S2000x256_S256x17_S2000x17_1_0_0_1_n_n.lhsIdx i q 0).val = (i 0).val := by
  unfold DotDims.lhsIdx
  rw [dif_neg (show ¬(0 : Fin S2000x256.rank) ∈ dot_S2000x256_S256x17_S2000x17_1_0_0_1_n_n.lhsBatch by decide), dif_pos (show (0 : Fin S2000x256.rank) ∈ dot_S2000x256_S256x17_S2000x17_1_0_0_1_n_n.lhsNonContracting by decide)]
  rfl
theorem lhs_feat (i : S2000x17.Idx) (q : dot_S2000x256_S256x17_S2000x17_1_0_0_1_n_n.contr.Idx) :
    (dot_S2000x256_S256x17_S2000x17_1_0_0_1_n_n.lhsIdx i q 1).val = (q ⟨0, by decide⟩).val :=
  dot_S2000x256_S256x17_S2000x17_1_0_0_1_n_n.lhsIdx_val_of_single rfl i q
theorem rhs_feat (i : S2000x17.Idx) (q : dot_S2000x256_S256x17_S2000x17_1_0_0_1_n_n.contr.Idx) :
    (dot_S2000x256_S256x17_S2000x17_1_0_0_1_n_n.rhsIdx i q 0).val = (q ⟨0, by decide⟩).val :=
  dot_S2000x256_S256x17_S2000x17_1_0_0_1_n_n.rhsIdx_val_of_single rfl i q
theorem rhs_col (i : S2000x17.Idx) (q : dot_S2000x256_S256x17_S2000x17_1_0_0_1_n_n.contr.Idx) :
    (dot_S2000x256_S256x17_S2000x17_1_0_0_1_n_n.rhsIdx i q 1).val = (i 1).val := by
  unfold DotDims.rhsIdx
  rw [dif_neg (show ¬(1 : Fin S256x17.rank) ∈ dot_S2000x256_S256x17_S2000x17_1_0_0_1_n_n.rhsBatch by decide), dif_pos (show (1 : Fin S256x17.rank) ∈ dot_S2000x256_S256x17_S2000x17_1_0_0_1_n_n.rhsNonContracting by decide)]
  rfl

/-- The body's payload at entry (p, r) of the block: the format changes are the identity on extended reals, the
    accumulator is zero, so what is left is the sum over the 256 features of x-block[p, k] · w[k, r]. -/
theorem pay_apply (x0 : Vec Ideal S2000x256 .f32) (x1 : Vec Ideal S256x17 .f32) (p : Fin 2000) (r : Fin 17) :
    k0_pay1 (F := Ideal) x0 x1 (ix2 p r) = ∑ k : Fin 256, x0 (ix2 p k) * x1 (ix2 k r) := by
  unfold k0_pay1
  simp only [matmul]
  rw [Ideal.matmul_constant_zero_apply, ← Equiv.sum_comp (contrEquiv1 dot_S2000x256_S256x17_S2000x17_1_0_0_1_n_n 256 rfl rfl).symm]
  refine Finset.sum_congr rfl fun k _ => ?_
  have hk := contrEquiv1_symm_val dot_S2000x256_S256x17_S2000x17_1_0_0_1_n_n 256 rfl rfl k
  have el : dot_S2000x256_S256x17_S2000x17_1_0_0_1_n_n.lhsIdx (ix2 p r) ((contrEquiv1 dot_S2000x256_S256x17_S2000x17_1_0_0_1_n_n 256 rfl rfl).symm k) = ix2 p k := funext fun a => Fin.ext (by
    match a with
    | ⟨0, _⟩ => exact lhs_row _ _
    | ⟨1, _⟩ => exact (lhs_feat _ _).trans hk)
  have er : dot_S2000x256_S256x17_S2000x17_1_0_0_1_n_n.rhsIdx (ix2 p r) ((contrEquiv1 dot_S2000x256_S256x17_S2000x17_1_0_0_1_n_n 256 rfl rfl).symm k) = ix2 k r := funext fun a => Fin.ext (by
    match a with
    | ⟨0, _⟩ => exact (rhs_feat _ _).trans hk
    | ⟨1, _⟩ => exact rhs_col _ _)
  rw [el, er, truncf_apply, truncf_apply, shapeCast_self]

/-! ## Where each window's block sits at a point

Decided once over the 25 points: at point t the x-window and the output window are at block row t, block column 0;
the weight window is always at block (0, 0). -/

theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 2000·t + p of the array, which has 50000 = 25 · 2000 rows. -/
theorem row_lt (t : Fin cfg0.N) (p : Fin 2000) : t.val * 2000 + p.val < 50000 := by
  have ht : t.val < 25 := lt_of_lt_of_eq t.isLt N_0
  have hp : p.val < 2000 := p.isLt
  omega

/-- The x-window's block at point t, entry (p, k), is x[2000·t + p, k]. -/
theorem xblk_apply (c : Dev nD) (t : Fin cfg0.N) (p : Fin 2000) (k : Fin 256) (n : Fin 50000) (hn : n.val = t.val * 2000 + p.val) :
    (iblk0 V c 0 t : Vec Ideal S2000x256 .f32) (ix2 p k) = (V c main_arg0 : A2 50000 256) (ix2 n k) := by
  obtain ⟨e0, e1, -⟩ := block_indices t
  show (V c main_arg0 : A2 50000 256) (((cfg0.win 0).blk t).view.emb (ix2 p k)) = (V c main_arg0 : A2 50000 256) (ix2 n k)
  refine congrArg (V c main_arg0 : A2 50000 256) (funext fun a => Fin.ext ?_)
  match a with
  | ⟨0, _⟩ => show win0_0.index t (0 : Fin 2) * 2000 + 1 * p.val = n.val; omega
  | ⟨1, _⟩ => show win0_0.index t (1 : Fin 2) * 256 + 1 * k.val = k.val; omega

/-- The weight window's block at every point is the whole weight. -/
theorem wblk_apply (c : Dev nD) (t : Fin cfg0.N) (k : Fin 256) (r : Fin 17) :
    (iblk0 V c 1 t : Vec Ideal S256x17 .f32) (ix2 k r) = (V c main_v6 : A2 256 17) (ix2 k r) := by
  obtain ⟨-, -, e2, e3, -⟩ := block_indices t
  show (V c main_v6 : A2 256 17) (((cfg0.win 1).blk t).view.emb (ix2 k r)) = (V c main_v6 : A2 256 17) (ix2 k r)
  refine congrArg (V c main_v6 : A2 256 17) (funext fun a => Fin.ext ?_)
  match a with
  | ⟨0, _⟩ => show win0_1.index t (0 : Fin 2) * 256 + 1 * k.val = k.val; omega
  | ⟨1, _⟩ => show win0_1.index t (1 : Fin 2) * 17 + 1 * r.val = r.val; omega

/-- Entry (p, r) of the output window's block at point t is entry (2000·t + p, r) of the array. -/
theorem oblk_emb (t : Fin cfg0.N) (p : Fin 2000) (r : Fin 17) (n : Fin 50000) (hn : n.val = t.val * 2000 + p.val) :
    ((cfg0.win 2).blk t).view.emb (ix2 p r) = (ix2 n r : S50000x17.Idx) := by
  obtain ⟨-, -, -, -, e4, e5⟩ := block_indices t
  funext a; apply Fin.ext
  match a with
  | ⟨0, _⟩ => show win0_2.index t (0 : Fin 2) * 2000 + 1 * p.val = n.val; omega
  | ⟨1, _⟩ => show win0_2.index t (1 : Fin 2) * 17 + 1 * r.val = r.val; omega

/-! ## What a point writes back, and the whole array -/

/-- WHAT POINT t WRITES BACK is block t of the projection of the arrays the region finds. -/
theorem flushed_proj (c : Dev nD) (t : Fin cfg0.N) :
    (dat0 (F := Ideal) V c).flushed 2 t = ((cfg0.win 2).blk t).view.read (Elt Ideal) (proj (V c main_arg0) (V c main_v6)) := by
  show (cfg0.win 2).cut (grid0.coords t) ((dat0 (F := Ideal) V c).after 2 t) = _
  rw [after0_2]
  unfold out0_2
  rw [View.canon_unit_zero zero_offsets]
  simp only [View.ld_unit_zero (S := S2000x256) zero_offsets, View.ld_unit_zero (S := S256x17) zero_offsets]
  funext j
  obtain ⟨p, r, rfl⟩ : ∃ (p : Fin 2000) (r : Fin 17), j = ix2 p r := ⟨j 0, j 1, eq_ix2 j⟩
  show k0_pay1 (F := Ideal) (iblk0 V c 0 t) (iblk0 V c 1 t) (ix2 p r)
    = proj (V c main_arg0) (V c main_v6) (((cfg0.win 2).blk t).view.emb (ix2 p r))
  rw [oblk_emb t p r ⟨t.val * 2000 + p.val, row_lt t p⟩ rfl, proj_ix2]
  refine (pay_apply _ _ p r).trans (Finset.sum_congr rfl fun k _ => ?_)
  rw [xblk_apply V c t p k ⟨t.val * 2000 + p.val, row_lt t p⟩ rfl, wblk_apply V c t k r]

/-- An index of the array is in point t's block iff each coordinate is in the block's range on its axis. -/
theorem mem_oblk (t : Fin cfg0.N) (i : S50000x17.Idx) :
    i ∈ ((cfg0.win 2).blk t).view.set ↔ ∀ a : Fin 2, win0_2.index t a * S2000x17.size a ≤ (i a).val ∧ (i a).val < win0_2.index t a * S2000x17.size a + S2000x17.size a := by
  show i ∈ ((View.whole main_v7).slice (win0_2.rect t)).set ↔ _
  rw [View.set_slice_whole, Rect.mem_set_unit]
  exact Iff.rfl

/-- Every index of the array is in the block of the point its row names: row n lies in block n / 2000. -/
theorem covered (i : S50000x17.Idx) :
    ∃ t : Fin cfg0.N, (cfg0.win 2).flush t = true ∧ i ∈ ((cfg0.win 2).blk t).view.set := by
  have hi0 : (i 0).val < 50000 := (i 0).isLt
  have hi1 : (i 1).val < 17 := (i 1).isLt
  refine ⟨⟨(i 0).val / 2000, by rw [show cfg0.N = 25 from N_0]; omega⟩, flush0_2 _, ?_⟩
  rw [mem_oblk]
  obtain ⟨-, -, -, -, e4, e5⟩ := block_indices ⟨(i 0).val / 2000, by rw [show cfg0.N = 25 from N_0]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 17 ≤ (i 1).val ∧ (i 1).val < win0_2.index _ (1 : Fin 2) * 17 + 17
    rw [e5]; omega

/-- THE ARRAY after the region: the projection of x through the seventeen weight columns. -/
theorem proj_final (c : Dev nD) : (dat0 (F := Ideal) V c).arrAt 2 cfg0.N = proj (V c main_arg0) (V c main_v6) :=
  (dat0 (F := Ideal) V c).arrAt_eq_of_cover 2 (proj (V c main_arg0) (V c main_v6)) (fun t _ => flushed_proj V c t) covered

end Cert.KernelIdeal.Blocks

end
-- ==== Proof.Blocks1.lean ====
/-
  Region 1 of the idealized kernel, from blocks to the whole arrays.

  At point t the body reads the [2000, 1] block of the score column s and the [2000, 256] block of the node features x
  (block t: rows 2000·t … 2000·t + 1999). It stores tanh of the score block as block t of the activation array, and
  the feature block times that column broadcast along the 256 features as block t of the scaled-features array: entry
  (p, d) is x[2000·t + p, d] · tanh s[2000·t + p, 0]. The 25 blocks tile the 50000 rows of each array, so after the
  region the two arrays are `tanhCol s` and `scaled x s`.
-/
import proofs.«117722_j22179211117211_1_alg».proof.Proof.Gen.KernelIdeal.Frame
import proofs.«117722_j22179211117211_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Cert.Hand Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets the body's whole-buffer loads and stores are written with. -/
theorem zero_offsets_scale : (![0, 0] : Fin 2 → Nat) = fun _ => 0 := funext fun a => by fin_cases a <;> rfl

/-! ## The body's two payloads at an index -/

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first payload: the activation of the score block, entry by entry (the shape cast is to the same shape). -/
theorem tanh_pay_apply (s0 : Vec Ideal S2000x1 .f32) (j : S2000x1.Idx) :
    k1_pay1 (F := Ideal) s0 j = Ideal.tanh (s0 j) := by
  unfold k1_pay1
  simp only [shapeCast_self]
  rfl

/-- The second payload at entry (p, d): the feature times the activated score of its row. -/
theorem scale_pay_apply (s0 : Vec Ideal S2000x1 .f32) (x0 : Vec Ideal S2000x256 .f32) (p : Fin 2000) (d : Fin 256) :
    k1_pay2 (F := Ideal) s0 x0 (ix2 p d) = x0 (ix2 p d) * Ideal.tanh (s0 (ix2 p (0 : Fin 1))) := by
  unfold k1_pay2
  simp only [mulf_apply]
  rw [broadcastTo_a1_ab_apply, tanh_pay_apply]

/-! ## Where each window's block sits at a point

Decided once over the 25 points: at point t every window is at block row t, block column 0. -/

theorem block_indices_scale : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of block t is row 2000·t + p of the array, which has 50000 = 25 · 2000 rows. -/
theorem row_lt_scale (t : Fin cfg1.N) (p : Fin 2000) : t.val * 2000 + p.val < 50000 := by
  have ht : t.val < 25 := lt_of_lt_of_eq t.isLt N_1
  have hp : p.val < 2000 := p.isLt
  omega

/-- The point whose block holds row n: n / 2000. -/
theorem point_lt (n : Nat) (hn : n < 50000) : n / 2000 < cfg1.N := by
  rw [show cfg1.N = 25 from N_1]; omega

/-- The x-window's block at point t, entry (p, d), is x[2000·t + p, d]. -/
theorem xblk_scale_apply (c : Dev nD) (t : Fin cfg1.N) (p : Fin 2000) (d : Fin 256) (n : Fin 50000) (hn : n.val = t.val * 2000 + p.val) :
    (iblk1 V c 0 t : Vec Ideal S2000x256 .f32) (ix2 p d) = (V c main_arg0 : A2 50000 256) (ix2 n d) := by
  obtain ⟨e0, e1, -⟩ := block_indices_scale t
  show (V c main_arg0 : A2 50000 256) (((cfg1.win 0).blk t).view.emb (ix2 p d)) = (V c main_arg0 : A2 50000 256) (ix2 n d)
  refine congrArg (V c main_arg0 : A2 50000 256) (funext fun a => Fin.ext ?_)
  match a with
  | ⟨0, _⟩ => show win1_0.index t (0 : Fin 2) * 2000 + 1 * p.val = n.val; omega
  | ⟨1, _⟩ => show win1_0.index t (1 : Fin 2) * 256 + 1 * d.val = d.val; omega

/-- The score window's block at point t, entry (p, z), is s[2000·t + p, z]. -/
theorem sblk_apply (c : Dev nD) (t : Fin cfg1.N) (p : Fin 2000) (z : Fin 1) (n : Fin 50000) (hn : n.val = t.val * 2000 + p.val) :
    (iblk1 V c 1 t : Vec Ideal S2000x1 .f32) (ix2 p z) = (V c main_v39 : A2 50000 1) (ix2 n z) := by
  obtain ⟨-, -, e2, e3, -⟩ := block_indices_scale t
  show (V c main_v39 : A2 50000 1) (((cfg1.win 1).blk t).view.emb (ix2 p z)) = (V c main_v39 : A2 50000 1) (ix2 n z)
  refine congrArg (V c main_v39 : A2 50000 1) (funext fun a => Fin.ext ?_)
  match a with
  | ⟨0, _⟩ => show win1_1.index t (0 : Fin 2) * 2000 + 1 * p.val = n.val; omega
  | ⟨1, _⟩ => show win1_1.index t (1 : Fin 2) * 1 + 1 * z.val = z.val; omega

/-- Entry (p, d) of the scaled-features window's block at point t is entry (2000·t + p, d) of its array. -/
theorem scaled_blk_emb (t : Fin cfg1.N) (p : Fin 2000) (d : Fin 256) (n : Fin 50000) (hn : n.val = t.val * 2000 + p.val) :
    ((cfg1.win 2).blk t).view.emb (ix2 p d) = (ix2 n d : S50000x256.Idx) := by
  obtain ⟨-, -, -, -, e4, e5, -⟩ := block_indices_scale t
  funext a; apply Fin.ext
  match a with
  | ⟨0, _⟩ => show win1_2.index t (0 : Fin 2) * 2000 + 1 * p.val = n.val; omega
  | ⟨1, _⟩ => show win1_2.index t (1 : Fin 2) * 256 + 1 * d.val = d.val; omega

/-- Entry (p, z) of the activation window's block at point t is entry (2000·t + p, z) of its array. -/
theorem tanh_blk_emb (t : Fin cfg1.N) (p : Fin 2000) (z : Fin 1) (n : Fin 50000) (hn : n.val = t.val * 2000 + p.val) :
    ((cfg1.win 3).blk t).view.emb (ix2 p z) = (ix2 n z : S50000x1.Idx) := by
  obtain ⟨-, -, -, -, -, -, e6, e7⟩ := block_indices_scale t
  funext a; apply Fin.ext
  match a with
  | ⟨0, _⟩ => show win1_3.index t (0 : Fin 2) * 2000 + 1 * p.val = n.val; omega
  | ⟨1, _⟩ => show win1_3.index t (1 : Fin 2) * 1 + 1 * z.val = z.val; omega

/-! ## The scaled features: what a point writes back, and the whole array -/

/-- WHAT POINT t WRITES BACK to the scaled-features window is block t of `scaled` of the arrays the region finds. -/
theorem flushed_scaled (c : Dev nD) (t : Fin cfg1.N) :
    (dat1 (F := Ideal) V c).flushed 2 t = ((cfg1.win 2).blk t).view.read (Elt Ideal) (scaled (V c main_arg0) (V c main_v39)) := by
  show (cfg1.win 2).cut (grid1.coords t) ((dat1 (F := Ideal) V c).after 2 t) = _
  rw [after1_2]
  unfold out1_2
  rw [View.canon_unit_zero zero_offsets_scale]
  simp only [View.ld_unit_zero (S := S2000x256) zero_offsets_scale, View.ld_unit_zero (S := S2000x1) zero_offsets_scale]
  funext j
  obtain ⟨p, d, rfl⟩ : ∃ (p : Fin 2000) (d : Fin 256), j = ix2 p d := ⟨j 0, j 1, eq_ix2 j⟩
  show k1_pay2 (F := Ideal) (iblk1 V c 1 t) (iblk1 V c 0 t) (ix2 p d)
    = scaled (V c main_arg0) (V c main_v39) (((cfg1.win 2).blk t).view.emb (ix2 p d))
  rw [scaled_blk_emb t p d ⟨t.val * 2000 + p.val, row_lt_scale t p⟩ rfl, scaled_ix2]
  refine (scale_pay_apply _ _ p d).trans ?_
  rw [xblk_scale_apply V c t p d ⟨t.val * 2000 + p.val, row_lt_scale t p⟩ rfl, sblk_apply V c t p 0 ⟨t.val * 2000 + p.val, row_lt_scale t p⟩ rfl]

/-- An index of the scaled-features array is in point t's block iff each coordinate is in the block's range. -/
theorem mem_scaled_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v40_0).slice (win1_2.rect t)).set ↔ _
  rw [View.set_slice_whole, Rect.mem_set_unit]
  exact Iff.rfl

/-- Every index of the scaled-features array is in the block of the point its row names: row n lies in block n / 2000. -/
theorem covered_scaled (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  refine ⟨⟨(i 0).val / 2000, point_lt _ hi0⟩, flush1_2 _, ?_⟩
  rw [mem_scaled_blk]
  obtain ⟨-, -, -, -, e4, e5, -⟩ := block_indices_scale ⟨(i 0).val / 2000, point_lt _ hi0⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 256 ≤ (i 1).val ∧ (i 1).val < win1_2.index _ (1 : Fin 2) * 256 + 256
    rw [e5]; omega

/-- THE SCALED-FEATURES ARRAY after the region: every row of x times the activated score of its node. -/
theorem scaled_final (c : Dev nD) : (dat1 (F := Ideal) V c).arrAt 2 cfg1.N = scaled (V c main_arg0) (V c main_v39) :=
  (dat1 (F := Ideal) V c).arrAt_eq_of_cover 2 (scaled (V c main_arg0) (V c main_v39)) (fun t _ => flushed_scaled V c t) covered_scaled

/-! ## The activated scores: what a point writes back, and the whole array -/

/-- WHAT POINT t WRITES BACK to the activation window is block t of `tanhCol` of the score column the region finds. -/
theorem flushed_tanh (c : Dev nD) (t : Fin cfg1.N) :
    (dat1 (F := Ideal) V c).flushed 3 t = ((cfg1.win 3).blk t).view.read (Elt Ideal) (tanhCol (V c main_v39)) := by
  show (cfg1.win 3).cut (grid1.coords t) ((dat1 (F := Ideal) V c).after 3 t) = _
  rw [after1_3]
  unfold out1_3
  rw [View.canon_unit_zero zero_offsets_scale]
  simp only [View.ld_unit_zero (S := S2000x1) zero_offsets_scale]
  funext j
  obtain ⟨p, z, rfl⟩ : ∃ (p : Fin 2000) (z : Fin 1), j = ix2 p z := ⟨j 0, j 1, eq_ix2 j⟩
  show k1_pay1 (F := Ideal) (iblk1 V c 1 t) (ix2 p z)
    = tanhCol (V c main_v39) (((cfg1.win 3).blk t).view.emb (ix2 p z))
  rw [tanh_blk_emb t p z ⟨t.val * 2000 + p.val, row_lt_scale t p⟩ rfl]
  refine (tanh_pay_apply _ _).trans ?_
  rw [sblk_apply V c t p z ⟨t.val * 2000 + p.val, row_lt_scale t p⟩ rfl]
  rfl

/-- An index of the activation array is in point t's block iff each coordinate is in the block's range. -/
theorem mem_tanh_blk (t : Fin cfg1.N) (i : S50000x1.Idx) :
    i ∈ ((cfg1.win 3).blk t).view.set ↔ ∀ a : Fin 2, win1_3.index t a * S2000x1.size a ≤ (i a).val ∧ (i a).val < win1_3.index t a * S2000x1.size a + S2000x1.size a := by
  show i ∈ ((View.whole main_v40_1).slice (win1_3.rect t)).set ↔ _
  rw [View.set_slice_whole, Rect.mem_set_unit]
  exact Iff.rfl

/-- Every index of the activation array is in the block of the point its row names. -/
theorem covered_tanh (i : S50000x1.Idx) :
    ∃ t : Fin cfg1.N, (cfg1.win 3).flush t = true ∧ i ∈ ((cfg1.win 3).blk t).view.set := by
  have hi0 : (i 0).val < 50000 := (i 0).isLt
  have hi1 : (i 1).val < 1 := (i 1).isLt
  refine ⟨⟨(i 0).val / 2000, point_lt _ hi0⟩, flush1_3 _, ?_⟩
  rw [mem_tanh_blk]
  obtain ⟨-, -, -, -, -, -, e6, e7⟩ := block_indices_scale ⟨(i 0).val / 2000, point_lt _ hi0⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 1 ≤ (i 1).val ∧ (i 1).val < win1_3.index _ (1 : Fin 2) * 1 + 1
    rw [e7]; omega

/-- THE ACTIVATION ARRAY after the region: the hyperbolic tangent of the score column, entry by entry. -/
theorem tanh_final (c : Dev nD) : (dat1 (F := Ideal) V c).arrAt 3 cfg1.N = tanhCol (V c main_v39) :=
  (dat1 (F := Ideal) V c).arrAt_eq_of_cover 3 (tanhCol (V c main_v39)) (fun t _ => flushed_tanh V c t) covered_tanh

end Cert.KernelIdeal.Blocks

end
-- ==== Proof.RDefs.lean ====
/-
  The reference program's per-edge message and root projection, as functions of the arguments.

  The message of an edge is the sum over the 256 features of the source node's feature times the edge's relation
  weight (`msgR`); the root projection of a node is its feature row against the root weight (`xrootR`).
-/
import proofs.«117722_j22179211117211_1_alg».proof.Proof.Gen.ReferenceIdeal.Read
import proofs.«117722_j22179211117211_1_alg».proof.Proof.Tail

noncomputable section

namespace Cert.ReferenceIdeal.RefVals

open Cert.ReferenceIdeal Cert.ReferenceIdeal.Gen Cert.Hand Idealize.ShloMosaic

/-- Every edge's message: the source node's features times the relation's weights, summed over the features. -/
def msgR (x : FVec Ideal S50000x256 .f32) (w3 : FVec Ideal S16x256x1 .f32) (src et : IVec S800000 32) : FVec Ideal S800000 .f32 :=
  Host.reduceAdd
    (mulf (Host.gather gather_S50000x256_S800000x1_S800000x256_1_0_n_n_0_1_1256 x
        (broadcastInDim S800000x1 ![0] bcast_S800000_S800000x1_0 (wrapNeg 50000#32 src)))
      (Host.gather gather_S16x256x1_S800000x2_S800000x256_1_02_n_n_02_1_12561 w3
        (concatenate S800000x2 1 [⟨S800000x1, broadcastInDim S800000x1 ![0] bcast_S800000_S800000x1_0 (wrapNeg 16#32 et)⟩,
          ⟨S800000x1, broadcastInDim S800000x1 ![0] bcast_S800000_S800000x1_0 (id (broadcastInDim S800000 ![] bcast_S_S800000 (constantI S_ 32 0#32)))⟩]
          concatenates_S800000x1_S800000x1_S800000x2_d1)))
    (constant (F := Ideal) S_ .f32 0x00000000#32) reducesTo_S800000x256_S800000_d1 h_S_

/-- Every node's root projection. -/
def xrootR (x : FVec Ideal S50000x256 .f32) (root : FVec Ideal S256x1 .f32) : FVec Ideal S50000 .f32 :=
  shapeCast _ (Host.dotGeneral dot_S50000x256_S256x1_S50000x1_1_0_0_1_n_n none x root) shapeCasts_S50000x1_S50000

theorem xrootR_eq (x : FVec Ideal S50000x256 .f32) (root : FVec Ideal S256x1 .f32) :
    xrootR x root = Cert.ReferenceIdeal.Read.val_main_v35 (F := Ideal) x root := rfl

end Cert.ReferenceIdeal.RefVals

end
-- ==== Proof.Gather.lean ====
/-
  Three `stablehlo.gather`s read at an index, and the algebraic fact that joins two ways of forming a per-edge
  message. Shapes are literal throughout: a node table `[50000, 256]`, a per-relation weight `[16, 256, 1]`, the
  table of their products `[50000, 16]`, and 800000 edges whose start indices are `[800000, 2]` (a pair) or
  `[800000, 1]` (a single row number). Every start-index component is read as a signed integer and clamped so that
  the slice fits (`clampTo`); on an axis whose slice is the whole extent the clamp is to 0.
-/
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.Hand

/-- A 32-bit word read as a signed integer and clamped into `[0, n − 1]`: what a gather does to a start
    index on an axis of extent `n` whose slice size is one. -/
def clampTo (n : Nat) (hn : 0 < n) (v : BitVec 32) : Fin n := ⟨min v.toInt.toNat (n - 1), by omega⟩

/-! ## `y[src, type]`: one scalar per edge out of a `[50000, 16]` table -/

/-- The dimension numbers: both operand axes collapsed, the start index a pair (row, column) read along
    axis 1 of the `[800000, 2]` start indices. -/
abbrev pairDims (wf : GatherDims.WF (⟨2, ![50000, 16]⟩ : Shape) (⟨2, ![800000, 2]⟩ : Shape) (⟨1, ![800000]⟩ : Shape)
    [] [0, 1] [] [0, 1] [] 1 ![1, 1]) :
    GatherDims (⟨2, ![50000, 16]⟩ : Shape) (⟨2, ![800000, 2]⟩ : Shape) (⟨1, ![800000]⟩ : Shape) where
  offsetDims := []
  collapsedSliceDims := [0, 1]
  operandBatchingDims := []
  startIndicesBatchingDims := []
  startIndexMap := [0, 1]
  indexVectorDim := 1
  sliceSizes := ![1, 1]
  wf := wf

/-- Operand coordinate 0 of edge `e`: component 0 of its start index, clamped into `[0, 49999]`. -/
theorem pair_coord0 (wf : GatherDims.WF (⟨2, ![50000, 16]⟩ : Shape) (⟨2, ![800000, 2]⟩ : Shape) (⟨1, ![800000]⟩ : Shape)
    [] [0, 1] [] [0, 1] [] 1 ![1, 1]) (idx : IVec (⟨2, ![800000, 2]⟩ : Shape) 32) (e : Fin 800000) :
    ((pairDims wf).operandIdx (ix1 e) idx (0 : Fin 2)).val = min (idx (ix2 e (0 : Fin 2))).toInt.toNat (50000 - 1) := by
  show (pairDims wf).start (ix1 e) idx 0 + (pairDims wf).batchCoord (ix1 e) 0 + (pairDims wf).offCoord (ix1 e) 0 = _
  rw [GatherDims.batchCoord_eq_zero _ _ _ List.not_mem_nil,
    GatherDims.offCoord_eq_zero _ _ _ (fun h => ((GatherDims.mem_sKept _ _).mp h).1
      (show (0 : Fin 2) ∈ ([0, 1] : List (Fin 2)) by decide))]
  simp only [Nat.add_zero]
  unfold GatherDims.start
  rw [dif_pos (show (0 : Fin 2) ∈ ([0, 1] : List (Fin 2)) by decide)]
  have hsi : (pairDims wf).siIdx (ix1 e) ⟨List.idxOf (0 : Fin 2) (pairDims wf).startIndexMap,
      List.idxOf_lt_length_iff.2 (show (0 : Fin 2) ∈ ([0, 1] : List (Fin 2)) by decide)⟩ = ix2 e (0 : Fin 2) := by
    funext b; refine Fin.ext ?_
    match b with
    | ⟨0, _⟩ => rfl
    | ⟨1, _⟩ => rfl
  rw [hsi]
  rfl

/-- Operand coordinate 1 of edge `e`: component 1 of its start index, clamped into `[0, 15]`. -/
theorem pair_coord1 (wf : GatherDims.WF (⟨2, ![50000, 16]⟩ : Shape) (⟨2, ![800000, 2]⟩ : Shape) (⟨1, ![800000]⟩ : Shape)
    [] [0, 1] [] [0, 1] [] 1 ![1, 1]) (idx : IVec (⟨2, ![800000, 2]⟩ : Shape) 32) (e : Fin 800000) :
    ((pairDims wf).operandIdx (ix1 e) idx (1 : Fin 2)).val = min (idx (ix2 e (1 : Fin 2))).toInt.toNat (16 - 1) := by
  show (pairDims wf).start (ix1 e) idx 1 + (pairDims wf).batchCoord (ix1 e) 1 + (pairDims wf).offCoord (ix1 e) 1 = _
  rw [GatherDims.batchCoord_eq_zero _ _ _ List.not_mem_nil,
    GatherDims.offCoord_eq_zero _ _ _ (fun h => ((GatherDims.mem_sKept _ _).mp h).1
      (show (1 : Fin 2) ∈ ([0, 1] : List (Fin 2)) by decide))]
  simp only [Nat.add_zero]
  unfold GatherDims.start
  rw [dif_pos (show (1 : Fin 2) ∈ ([0, 1] : List (Fin 2)) by decide)]
  have hsi : (pairDims wf).siIdx (ix1 e) ⟨List.idxOf (1 : Fin 2) (pairDims wf).startIndexMap,
      List.idxOf_lt_length_iff.2 (show (1 : Fin 2) ∈ ([0, 1] : List (Fin 2)) by decide)⟩ = ix2 e (1 : Fin 2) := by
    funext b; refine Fin.ext ?_
    match b with
    | ⟨0, _⟩ => rfl
    | ⟨1, _⟩ => rfl
  rw [hsi]
  rfl

/-- THE PAIR GATHER READ AT EDGE `e`: the table at (row, column), each start-index component read signed and
    clamped into its axis. -/
theorem pair_apply (wf : GatherDims.WF (⟨2, ![50000, 16]⟩ : Shape) (⟨2, ![800000, 2]⟩ : Shape) (⟨1, ![800000]⟩ : Shape)
    [] [0, 1] [] [0, 1] [] 1 ![1, 1]) {α : Type} (z : (⟨2, ![50000, 16]⟩ : Shape).Idx → α)
    (idx : IVec (⟨2, ![800000, 2]⟩ : Shape) 32) (e : Fin 800000) :
    Host.gather (pairDims wf) z idx (ix1 e)
      = z (ix2 (clampTo 50000 (by decide) (idx (ix2 e (0 : Fin 2)))) (clampTo 16 (by decide) (idx (ix2 e (1 : Fin 2))))) := by
  unfold Host.gather
  congr 1
  funext a
  refine Fin.ext ?_
  match a with
  | ⟨0, _⟩ => exact pair_coord0 wf idx e
  | ⟨1, _⟩ => exact pair_coord1 wf idx e

/-! ## `x[src]`: a 256-row per edge out of a `[50000, 256]` table -/

/-- The dimension numbers: the row axis collapsed and indexed by the one-component start index, the
    column axis an offset axis carried whole. -/
abbrev rowDims (wf : GatherDims.WF (⟨2, ![50000, 256]⟩ : Shape) (⟨2, ![800000, 1]⟩ : Shape) (⟨2, ![800000, 256]⟩ : Shape)
    [1] [0] [] [0] [] 1 ![1, 256]) :
    GatherDims (⟨2, ![50000, 256]⟩ : Shape) (⟨2, ![800000, 1]⟩ : Shape) (⟨2, ![800000, 256]⟩ : Shape) where
  offsetDims := [1]
  collapsedSliceDims := [0]
  operandBatchingDims := []
  startIndicesBatchingDims := []
  startIndexMap := [0]
  indexVectorDim := 1
  sliceSizes := ![1, 256]
  wf := wf

/-- Operand coordinate 0 at `(e, k)`: the start index of edge `e`, clamped into `[0, 49999]`. -/
theorem row_coord0 (wf : GatherDims.WF (⟨2, ![50000, 256]⟩ : Shape) (⟨2, ![800000, 1]⟩ : Shape) (⟨2, ![800000, 256]⟩ : Shape)
    [1] [0] [] [0] [] 1 ![1, 256]) (idx : IVec (⟨2, ![800000, 1]⟩ : Shape) 32) (e : Fin 800000) (k : Fin 256) :
    ((rowDims wf).operandIdx (ix2 e k) idx (0 : Fin 2)).val = min (idx (ix2 e (0 : Fin 1))).toInt.toNat (50000 - 1) := by
  show (rowDims wf).start (ix2 e k) idx 0 + (rowDims wf).batchCoord (ix2 e k) 0 + (rowDims wf).offCoord (ix2 e k) 0 = _
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos (show (0 : Fin 2) ∈ ([0] : List (Fin 2)) by decide)]
  have hsi : (rowDims wf).siIdx (ix2 e k) ⟨List.idxOf (0 : Fin 2) (rowDims wf).startIndexMap,
      List.idxOf_lt_length_iff.2 (show (0 : Fin 2) ∈ ([0] : List (Fin 2)) by decide)⟩ = ix2 e (0 : Fin 1) := by
    funext b; refine Fin.ext ?_
    match b with
    | ⟨0, _⟩ => rfl
    | ⟨1, _⟩ => rfl
  rw [hsi]
  rfl

/-- Operand coordinate 1 at `(e, k)`: the offset coordinate `k` (no start index on this axis). -/
theorem row_coord1 (wf : GatherDims.WF (⟨2, ![50000, 256]⟩ : Shape) (⟨2, ![800000, 1]⟩ : Shape) (⟨2, ![800000, 256]⟩ : Shape)
    [1] [0] [] [0] [] 1 ![1, 256]) (idx : IVec (⟨2, ![800000, 1]⟩ : Shape) 32) (e : Fin 800000) (k : Fin 256) :
    ((rowDims wf).operandIdx (ix2 e k) idx (1 : Fin 2)).val = k.val := by
  show (rowDims wf).start (ix2 e k) idx 1 + (rowDims wf).batchCoord (ix2 e k) 1 + (rowDims wf).offCoord (ix2 e k) 1 = _
  rw [GatherDims.batchCoord_eq_zero _ _ _ List.not_mem_nil]
  unfold GatherDims.start
  rw [dif_neg (show ¬ (1 : Fin 2) ∈ ([0] : List (Fin 2)) by decide)]
  simp only [Nat.add_zero, Nat.zero_add]
  unfold GatherDims.offCoord
  rw [dif_pos ((GatherDims.mem_sKept _ _).mpr
    ⟨(show ¬ (1 : Fin 2) ∈ ([0] : List (Fin 2)) by decide), List.not_mem_nil⟩)]
  rfl

/-- THE ROW GATHER READ AT `(e, k)`: column `k` of the row the start index of edge `e` names, read signed
    and clamped. -/
theorem row_apply (wf : GatherDims.WF (⟨2, ![50000, 256]⟩ : Shape) (⟨2, ![800000, 1]⟩ : Shape) (⟨2, ![800000, 256]⟩ : Shape)
    [1] [0] [] [0] [] 1 ![1, 256]) {α : Type} (x : (⟨2, ![50000, 256]⟩ : Shape).Idx → α)
    (idx : IVec (⟨2, ![800000, 1]⟩ : Shape) 32) (e : Fin 800000) (k : Fin 256) :
    Host.gather (rowDims wf) x idx (ix2 e k)
      = x (ix2 (clampTo 50000 (by decide) (idx (ix2 e (0 : Fin 1)))) k) := by
  unfold Host.gather
  congr 1
  funext a
  refine Fin.ext ?_
  match a with
  | ⟨0, _⟩ => exact row_coord0 wf idx e k
  | ⟨1, _⟩ => exact row_coord1 wf idx e k

/-! ## `weight[type, :, 0]`: a 256-row per edge out of a `[16, 256, 1]` table -/

/-- The dimension numbers: axes 0 and 2 collapsed and indexed by the two start-index components, axis 1
    an offset axis carried whole. -/
abbrev relDims (wf : GatherDims.WF (⟨3, ![16, 256, 1]⟩ : Shape) (⟨2, ![800000, 2]⟩ : Shape) (⟨2, ![800000, 256]⟩ : Shape)
    [1] [0, 2] [] [0, 2] [] 1 ![1, 256, 1]) :
    GatherDims (⟨3, ![16, 256, 1]⟩ : Shape) (⟨2, ![800000, 2]⟩ : Shape) (⟨2, ![800000, 256]⟩ : Shape) where
  offsetDims := [1]
  collapsedSliceDims := [0, 2]
  operandBatchingDims := []
  startIndicesBatchingDims := []
  startIndexMap := [0, 2]
  indexVectorDim := 1
  sliceSizes := ![1, 256, 1]
  wf := wf

/-- Operand coordinate 0 at `(e, k)`: component 0 of the start index of edge `e`, clamped into `[0, 15]`. -/
theorem rel_coord0 (wf : GatherDims.WF (⟨3, ![16, 256, 1]⟩ : Shape) (⟨2, ![800000, 2]⟩ : Shape) (⟨2, ![800000, 256]⟩ : Shape)
    [1] [0, 2] [] [0, 2] [] 1 ![1, 256, 1]) (idx : IVec (⟨2, ![800000, 2]⟩ : Shape) 32) (e : Fin 800000) (k : Fin 256) :
    ((relDims wf).operandIdx (ix2 e k) idx (0 : Fin 3)).val = min (idx (ix2 e (0 : Fin 2))).toInt.toNat (16 - 1) := by
  show (relDims wf).start (ix2 e k) idx 0 + (relDims wf).batchCoord (ix2 e k) 0 + (relDims wf).offCoord (ix2 e k) 0 = _
  rw [GatherDims.batchCoord_eq_zero _ _ _ List.not_mem_nil,
    GatherDims.offCoord_eq_zero _ _ _ (fun h => ((GatherDims.mem_sKept _ _).mp h).1
      (show (0 : Fin 3) ∈ ([0, 2] : List (Fin 3)) by decide))]
  simp only [Nat.add_zero]
  unfold GatherDims.start
  rw [dif_pos (show (0 : Fin 3) ∈ ([0, 2] : List (Fin 3)) by decide)]
  have hsi : (relDims wf).siIdx (ix2 e k) ⟨List.idxOf (0 : Fin 3) (relDims wf).startIndexMap,
      List.idxOf_lt_length_iff.2 (show (0 : Fin 3) ∈ ([0, 2] : List (Fin 3)) by decide)⟩ = ix2 e (0 : Fin 2) := by
    funext b; refine Fin.ext ?_
    match b with
    | ⟨0, _⟩ => rfl
    | ⟨1, _⟩ => rfl
  rw [hsi]
  rfl

/-- Operand coordinate 1 at `(e, k)`: the offset coordinate `k`. -/
theorem rel_coord1 (wf : GatherDims.WF (⟨3, ![16, 256, 1]⟩ : Shape) (⟨2, ![800000, 2]⟩ : Shape) (⟨2, ![800000, 256]⟩ : Shape)
    [1] [0, 2] [] [0, 2] [] 1 ![1, 256, 1]) (idx : IVec (⟨2, ![800000, 2]⟩ : Shape) 32) (e : Fin 800000) (k : Fin 256) :
    ((relDims wf).operandIdx (ix2 e k) idx (1 : Fin 3)).val = k.val := by
  show (relDims wf).start (ix2 e k) idx 1 + (relDims wf).batchCoord (ix2 e k) 1 + (relDims wf).offCoord (ix2 e k) 1 = _
  rw [GatherDims.batchCoord_eq_zero _ _ _ List.not_mem_nil]
  unfold GatherDims.start
  rw [dif_neg (show ¬ (1 : Fin 3) ∈ ([0, 2] : List (Fin 3)) by decide)]
  simp only [Nat.add_zero, Nat.zero_add]
  unfold GatherDims.offCoord
  rw [dif_pos ((GatherDims.mem_sKept _ _).mpr
    ⟨(show ¬ (1 : Fin 3) ∈ ([0, 2] : List (Fin 3)) by decide), List.not_mem_nil⟩)]
  rfl

/-- Operand coordinate 2 at `(e, k)`: the slice on axis 2 is the whole extent 1, so the start is clamped
    to 0 whatever component 1 of the start index holds. -/
theorem rel_coord2 (wf : GatherDims.WF (⟨3, ![16, 256, 1]⟩ : Shape) (⟨2, ![800000, 2]⟩ : Shape) (⟨2, ![800000, 256]⟩ : Shape)
    [1] [0, 2] [] [0, 2] [] 1 ![1, 256, 1]) (idx : IVec (⟨2, ![800000, 2]⟩ : Shape) 32) (e : Fin 800000) (k : Fin 256) :
    ((relDims wf).operandIdx (ix2 e k) idx (2 : Fin 3)).val = 0 := by
  show (relDims wf).start (ix2 e k) idx 2 + (relDims wf).batchCoord (ix2 e k) 2 + (relDims wf).offCoord (ix2 e k) 2 = _
  rw [GatherDims.batchCoord_eq_zero _ _ _ List.not_mem_nil,
    GatherDims.offCoord_eq_zero _ _ _ (fun h => ((GatherDims.mem_sKept _ _).mp h).1
      (show (2 : Fin 3) ∈ ([0, 2] : List (Fin 3)) by decide))]
  simp only [Nat.add_zero]
  have h := (relDims wf).start_le (ix2 e k) idx 2
  have h0 : (⟨3, ![16, 256, 1]⟩ : Shape).size 2 - (relDims wf).sliceSizes 2 = 0 := rfl
  rw [h0] at h
  exact Nat.le_zero.mp h

/-- THE WEIGHT GATHER READ AT `(e, k)`: entry `(type, k, 0)` of the table, the type being component 0 of the
    start index of edge `e` read signed and clamped; component 1 does not matter. -/
theorem rel_apply (wf : GatherDims.WF (⟨3, ![16, 256, 1]⟩ : Shape) (⟨2, ![800000, 2]⟩ : Shape) (⟨2, ![800000, 256]⟩ : Shape)
    [1] [0, 2] [] [0, 2] [] 1 ![1, 256, 1]) {α : Type} (w : (⟨3, ![16, 256, 1]⟩ : Shape).Idx → α)
    (idx : IVec (⟨2, ![800000, 2]⟩ : Shape) 32) (e : Fin 800000) (k : Fin 256) :
    Host.gather (relDims wf) w idx (ix2 e k)
      = w (ix3 (clampTo 16 (by decide) (idx (ix2 e (0 : Fin 2)))) k (0 : Fin 1)) := by
  unfold Host.gather
  congr 1
  funext a
  refine Fin.ext ?_
  match a with
  | ⟨0, _⟩ => exact rel_coord0 wf idx e k
  | ⟨1, _⟩ => exact rel_coord1 wf idx e k
  | ⟨2, _⟩ => exact rel_coord2 wf idx e k

/-! ## The two programs' per-edge messages agree

One program multiplies node rows by every relation's weight column first, `z[n, r] = ∑ₖ x[n, k] · w[r, k, 0]`, and
then gathers the scalar `z[src, type]` per edge; the other gathers the row `x[src]` and the weight column
`w[type, :, 0]` per edge and contracts them. With the same (clamped) source and type on every edge these are the
same extended real: both are the one sum `∑ₖ x[src, k] · w[type, k, 0]`, written with the same additions and
multiplications, so no finiteness is used. -/

theorem msg_eq (wfP : GatherDims.WF (⟨2, ![50000, 16]⟩ : Shape) (⟨2, ![800000, 2]⟩ : Shape) (⟨1, ![800000]⟩ : Shape)
    [] [0, 1] [] [0, 1] [] 1 ![1, 1])
    (wfR : GatherDims.WF (⟨2, ![50000, 256]⟩ : Shape) (⟨2, ![800000, 1]⟩ : Shape) (⟨2, ![800000, 256]⟩ : Shape)
    [1] [0] [] [0] [] 1 ![1, 256])
    (wfW : GatherDims.WF (⟨3, ![16, 256, 1]⟩ : Shape) (⟨2, ![800000, 2]⟩ : Shape) (⟨2, ![800000, 256]⟩ : Shape)
    [1] [0, 2] [] [0, 2] [] 1 ![1, 256, 1])
    (x : (⟨2, ![50000, 256]⟩ : Shape).Idx → EReal) (w : (⟨3, ![16, 256, 1]⟩ : Shape).Idx → EReal)
    (z : (⟨2, ![50000, 16]⟩ : Shape).Idx → EReal)
    (hz : ∀ (n : Fin 50000) (r : Fin 16), z (ix2 n r) = ∑ k : Fin 256, x (ix2 n k) * w (ix3 r k (0 : Fin 1)))
    (iP : IVec (⟨2, ![800000, 2]⟩ : Shape) 32) (iX : IVec (⟨2, ![800000, 1]⟩ : Shape) 32)
    (iW : IVec (⟨2, ![800000, 2]⟩ : Shape) 32)
    (h0 : ∀ e : Fin 800000, iP (ix2 e (0 : Fin 2)) = iX (ix2 e (0 : Fin 1)))
    (h1 : ∀ e : Fin 800000, iP (ix2 e (1 : Fin 2)) = iW (ix2 e (0 : Fin 2)))
    (hred : (⟨2, ![800000, 256]⟩ : Shape).ReducesTo [1] (⟨1, ![800000]⟩ : Shape))
    (hS : 0 < (⟨0, ![]⟩ : Shape).numel) :
    Host.gather (pairDims wfP) z iP
      = Host.reduceAdd (F := Ideal) (φ := .f32)
          (mulf (F := Ideal) (φ := .f32) (Host.gather (rowDims wfR) x iX) (Host.gather (relDims wfW) w iW))
          (constant (F := Ideal) ⟨0, ![]⟩ .f32 0x00000000#32) hred hS := by
  funext j
  obtain ⟨e, rfl⟩ : ∃ e : Fin 800000, j = ix1 e := ⟨j 0, eq_ix1 j⟩
  have hR : (⟨2, ![800000, 256]⟩ : Shape).Reduces [1] (⟨1, ![800000]⟩ : Shape) := by decide
  rw [pair_apply, hz]
  unfold Host.reduceAdd
  rw [Ideal.hostReduceAdd_def, Ideal.hostReduceAdd_single hred hR, constant_apply, Ideal.ofBits_zero_f32, zero_add]
  refine Finset.sum_congr rfl (fun (k : Fin 256) _ => ?_)
  have hl : hR.lift (ix1 e) k = ix2 e k := by
    funext c; refine Fin.ext ?_
    match c with
    | ⟨0, _⟩ => rfl
    | ⟨1, _⟩ => rfl
  rw [hl, mulf_apply, row_apply, rel_apply, h0, h1]

end Cert.Hand

end
-- ==== Proof.Bridge.lean ====
/-
  The bridge between the two programs' host stages. The kernel program lays the sixteen relation weight vectors
  and the root weight out as the seventeen columns of one `[256, 17]` matrix, projects every node through all
  of them at once, and then reads each edge's message and each node's root projection out of the projected table;
  the reference gathers rows and weight columns per edge and contracts them, and multiplies the feature matrix by
  the root weight. Here: the weight matrix read at an index (`wcat_rel`, `wcat_root`), the per-edge messages
  equal (`msg_bridge`), the root projections equal (`xroot_bridge`). All sums are the same expression on both
  sides, so nothing about finiteness is needed.
-/
import proofs.«117722_j22179211117211_1_alg».proof.Proof.KDefs
import proofs.«117722_j22179211117211_1_alg».proof.Proof.RDefs
import proofs.«117722_j22179211117211_1_alg».proof.Proof.Tail
import proofs.«117722_j22179211117211_1_alg».proof.Proof.Spec
import proofs.«117722_j22179211117211_1_alg».proof.Proof.Gather
import Idealize.ShloMosaic.Lib.Pipeline.Value
import Idealize.ShloMosaic.Lib.ValueIdx
import Idealize.ShloMosaic.PureOps.Ideal.Laws

noncomputable section

open Cert.KernelIdeal.HostVals Cert.ReferenceIdeal.RefVals Cert.Hand Idealize.ShloMosaic Idealize.ShloMosaic.ValueIdx
open scoped BigOperators

namespace Cert.Hand

/-! ## The seventeen weight columns, read at an index -/

/-- Column `r < 16` of the weight matrix is relation `r`'s weight vector: the concatenation reads its first piece
    there, the transpose swaps the two coordinates, and the reshape `[16, 256, 1] → [16, 256]` keeps the row-major
    position `r · 256 + k`. -/
theorem wcat_rel (w3 : FVec Ideal Cert.KernelIdeal.S16x256x1 .f32) (root : FVec Ideal Cert.KernelIdeal.S256x1 .f32)
    (k : Fin 256) (r : Fin 16) :
    wcat w3 root (ix2 k (⟨r.val, by omega⟩ : Fin 17)) = w3 (ix3 r k (0 : Fin 1)) := by
  unfold wcat
  refine (concatenate_pair_apply_left (t := Cert.KernelIdeal.S256x17) (s₁ := Cert.KernelIdeal.S256x16)
    (s₂ := Cert.KernelIdeal.S256x1) 1 _ root Cert.KernelIdeal.Gen.concatenates_S256x16_S256x1_S256x17_d1
    (ix2 k (⟨r.val, by omega⟩ : Fin 17)) rfl (ix2 k r) (fun b => by
      match b with
      | ⟨0, _⟩ => rfl
      | ⟨1, _⟩ => rfl)).trans ?_
  refine (transpose_apply (s := Cert.KernelIdeal.S16x256) (t := Cert.KernelIdeal.S256x16) [1, 0] _
    Cert.KernelIdeal.Gen.transposes_S16x256_S256x16_1_0 (ix2 k r) (ix2 r k) (fun b => by
      match b with
      | ⟨0, _⟩ => rfl
      | ⟨1, _⟩ => rfl)).trans ?_
  refine shapeCast_apply (s := Cert.KernelIdeal.S16x256x1) (t := Cert.KernelIdeal.S16x256) w3
    Cert.KernelIdeal.Gen.shapeCasts_S16x256x1_S16x256 (ix2 r k) (ix3 r k (0 : Fin 1)) ?_
  rewrite [Shape.rowMajor_val_three, Shape.rowMajor_val_two]
  show (r.val * 256 + k.val) * 1 + 0 = r.val * 256 + k.val
  omega

/-- Column 16 of the weight matrix is the root weight: the concatenation reads its second piece there, sixteen
    columns in. -/
theorem wcat_root (w3 : FVec Ideal Cert.KernelIdeal.S16x256x1 .f32) (root : FVec Ideal Cert.KernelIdeal.S256x1 .f32)
    (k : Fin 256) :
    wcat w3 root (ix2 k (16 : Fin 17)) = root (ix2 k (0 : Fin 1)) := by
  unfold wcat
  exact concatenate_pair_apply_right (t := Cert.KernelIdeal.S256x17) (s₁ := Cert.KernelIdeal.S256x16)
    (s₂ := Cert.KernelIdeal.S256x1) 1 _ root Cert.KernelIdeal.Gen.concatenates_S256x16_S256x1_S256x17_d1
    (ix2 k (16 : Fin 17)) rfl rfl (ix2 k (0 : Fin 1))
    (fun b hb => by
      match b with
      | ⟨0, _⟩ => rfl
      | ⟨1, _⟩ => exact absurd rfl hb)
    rfl

/-! ## The per-edge messages agree

The kernel program projects every node through all seventeen columns first and reads, per edge, the scalar at
(source, relation) out of the first sixteen columns of the table; the reference reads the source's feature row and
the relation's weight column per edge and contracts them. The index arrays are the same wrapped source and relation
numbers on both sides, so the two are the one sum of `Gather.lean`'s `msg_eq`. -/

theorem msg_bridge (x : FVec Ideal Cert.KernelIdeal.S50000x256 .f32) (w3 : FVec Ideal Cert.KernelIdeal.S16x256x1 .f32)
    (root : FVec Ideal Cert.KernelIdeal.S256x1 .f32) (src et : IVec Cert.KernelIdeal.S800000 32) :
    msgK (proj x (wcat w3 root)) src et = msgR x w3 src et := by
  unfold msgK msgR
  refine msg_eq Cert.KernelIdeal.Gen.gather_S50000x16_S800000x2_S800000_n_01_n_n_01_1_11_wf
    Cert.ReferenceIdeal.Gen.gather_S50000x256_S800000x1_S800000x256_1_0_n_n_0_1_1256_wf
    Cert.ReferenceIdeal.Gen.gather_S16x256x1_S800000x2_S800000x256_1_02_n_n_02_1_12561_wf
    x w3 _ ?hz _ _ _ ?h0 ?h1 _ _
  case hz =>
    intro n r
    refine (extractStridedSlice_apply (s := Cert.KernelIdeal.S50000x17) (t := Cert.KernelIdeal.S50000x16) ![0, 0] _
      Cert.KernelIdeal.Gen.slices_S50000x17_S50000x16_0_0 (ix2 n r) (ix2 n (⟨r.val, by omega⟩ : Fin 17)) (fun a => by
        match a with
        | ⟨0, _⟩ => show n.val = 0 + n.val; omega
        | ⟨1, _⟩ => show r.val = 0 + r.val; omega)).trans ?_
    rw [proj_ix2]
    refine Finset.sum_congr rfl fun k _ => ?_
    rw [wcat_rel]
  case h0 =>
    intro e
    exact concatenate_pair_apply_left (t := Cert.KernelIdeal.S800000x2) (s₁ := Cert.KernelIdeal.S800000x1)
      (s₂ := Cert.KernelIdeal.S800000x1) 1 _ _ Cert.KernelIdeal.Gen.concatenates_S800000x1_S800000x1_S800000x2_d1
      (ix2 e (0 : Fin 2)) rfl (ix2 e (0 : Fin 1)) (fun b => by
        match b with
        | ⟨0, _⟩ => rfl
        | ⟨1, _⟩ => rfl)
  case h1 =>
    intro e
    refine (concatenate_pair_apply_right (t := Cert.KernelIdeal.S800000x2) (s₁ := Cert.KernelIdeal.S800000x1)
      (s₂ := Cert.KernelIdeal.S800000x1) 1 _ _ Cert.KernelIdeal.Gen.concatenates_S800000x1_S800000x1_S800000x2_d1
      (ix2 e (1 : Fin 2)) rfl rfl (ix2 e (0 : Fin 1))
      (fun b hb => by
        match b with
        | ⟨0, _⟩ => rfl
        | ⟨1, _⟩ => exact absurd rfl hb)
      rfl).trans ?_
    exact (concatenate_pair_apply_left (t := Cert.ReferenceIdeal.S800000x2) (s₁ := Cert.ReferenceIdeal.S800000x1)
      (s₂ := Cert.ReferenceIdeal.S800000x1) 1 _ _ Cert.ReferenceIdeal.Gen.concatenates_S800000x1_S800000x1_S800000x2_d1
      (ix2 e (0 : Fin 2)) rfl (ix2 e (0 : Fin 1)) (fun b => by
        match b with
        | ⟨0, _⟩ => rfl
        | ⟨1, _⟩ => rfl)).symm

/-! ## The root projections agree

The kernel program's root projection is the last column of the projected table, flattened; the reference's is the
feature matrix against the root weight, flattened. Both are `∑ₖ x[n, k] · root[k, 0]` at node `n`. -/

theorem xroot_bridge (x : FVec Ideal Cert.KernelIdeal.S50000x256 .f32) (w3 : FVec Ideal Cert.KernelIdeal.S16x256x1 .f32)
    (root : FVec Ideal Cert.KernelIdeal.S256x1 .f32) :
    xrootK (proj x (wcat w3 root)) = xrootR x root := by
  funext i
  obtain ⟨n, rfl⟩ : ∃ n : Fin 50000, i = ix1 n := ⟨i 0, eq_ix1 i⟩
  -- the kernel program's side
  have hK : xrootK (proj x (wcat w3 root)) (ix1 n) = ∑ k : Fin 256, x (ix2 n k) * root (ix2 k (0 : Fin 1)) := by
    unfold xrootK
    refine (shapeCast_apply (s := Cert.KernelIdeal.S50000x1) (t := Cert.KernelIdeal.S50000) _
      Cert.KernelIdeal.Gen.shapeCasts_S50000x1_S50000 (ix1 n) (ix2 n (0 : Fin 1)) (by
        rewrite [Shape.rowMajor_val_two, Shape.rowMajor_val_one]
        show n.val * 1 + 0 = n.val
        omega)).trans ?_
    refine (extractStridedSlice_apply (s := Cert.KernelIdeal.S50000x17) (t := Cert.KernelIdeal.S50000x1) ![0, 16] _
      Cert.KernelIdeal.Gen.slices_S50000x17_S50000x1_0_16 (ix2 n (0 : Fin 1)) (ix2 n (16 : Fin 17)) (fun a => by
        match a with
        | ⟨0, _⟩ => show n.val = 0 + n.val; omega
        | ⟨1, _⟩ => show 16 = 16 + 0; omega)).trans ?_
    rw [proj_ix2]
    refine Finset.sum_congr rfl fun k _ => ?_
    rw [wcat_root]
  -- the reference's side
  have hR : xrootR x root (ix1 n) = ∑ k : Fin 256, x (ix2 n k) * root (ix2 k (0 : Fin 1)) := by
    rw [xrootR_eq, Cert.ReferenceIdeal.Read.val_main_v35_apply, Cert.ReferenceIdeal.Read.val_main_v34_apply]
    refine Finset.sum_congr rfl fun k _ => ?_
    have hl : Cert.ReferenceIdeal.Read.lidx_main_v34 (Cert.ReferenceIdeal.Read.idx_main_v35 (ix1 n)) k = ix2 n k := by
      funext a; refine Fin.ext ?_
      match a with
      | ⟨0, _⟩ => exact Nat.div_one _
      | ⟨1, _⟩ => rfl
    have hr : Cert.ReferenceIdeal.Read.ridx_main_v34 (Cert.ReferenceIdeal.Read.idx_main_v35 (ix1 n)) k = ix2 k (0 : Fin 1) := by
      funext a; refine Fin.ext ?_
      match a with
      | ⟨0, _⟩ => rfl
      | ⟨1, _⟩ => rfl
    rw [hl, hr]
  rw [hK, hR]

end Cert.Hand

end
-- ==== Proof.Pointwise.lean ====
/-
  The last step of both programs, read entry by entry: the activation of the score and the scaling of the features.

  With `s` the pre-activation score of every node, the reference's second result is `tanh s` and its first result
  multiplies every feature row by its node's `tanh s` (two broadcasts). The kernel program lays `s` out as a
  column, and its scaling call returns `scaled x column` and `tanhCol column` (flattened). Entry by entry these are
  the same extended reals.
-/
import proofs.«117722_j22179211117211_1_alg».proof.Proof.Tail
import proofs.«117722_j22179211117211_1_alg».proof.Proof.Spec
import Idealize.ShloMosaic.Lib.Pipeline.Value
import Idealize.ShloMosaic.Lib.ValueIdx

noncomputable section

namespace Cert.Hand

open Cert.ReferenceIdeal Cert.ReferenceIdeal.Gen Idealize.ShloMosaic Idealize.ShloMosaic.ValueIdx

/-- The score laid out as a column, read at (n, 0): the score of node n. -/
theorem column_apply (s : FVec Ideal S50000 .f32) (n : Fin 50000) :
    broadcastInDim S50000x1 ![0] bcast_S50000_S50000x1_0 s (ix2 n (0 : Fin 1)) = s (ix1 n) :=
  broadcastInDim_apply _ _ s (ix2 n (0 : Fin 1)) (ix1 n) (fun a => by
    match a with
    | ⟨0, _⟩ => rfl)

/-- The reference's scaled features are the kernel program's: each feature times the activation of its node's score. -/
theorem scaled_eq (x : FVec Ideal S50000x256 .f32) (s : FVec Ideal S50000 .f32) :
    mulf x (broadcastInDim S50000x256 ![0, 1] bcast_S50000x1_S50000x256_0_1
        (broadcastInDim S50000x1 ![0] bcast_S50000_S50000x1_0 (Host.tanh s)))
      = scaled x (broadcastInDim S50000x1 ![0] bcast_S50000_S50000x1_0 s) := by
  funext i
  obtain ⟨n, d, rfl⟩ : ∃ (n : Fin 50000) (d : Fin 256), i = ix2 n d := ⟨i 0, i 1, eq_ix2 i⟩
  rw [scaled_ix2, column_apply]
  show x (ix2 n d) * _ = _
  refine congrArg (x (ix2 n d) * ·) ?_
  refine (broadcastInDim_apply _ _ _ (ix2 n d) (ix2 n (0 : Fin 1)) (fun a => by
    match a with
    | ⟨0, _⟩ => rfl
    | ⟨1, _⟩ => rfl)).trans ?_
  exact column_apply (Host.tanh s) n

/-- The kernel program's flattened activation column is the reference's activation of the score. -/
theorem tanh_eq (s : FVec Ideal S50000 .f32) :
    shapeCast S50000 (tanhCol (broadcastInDim S50000x1 ![0] bcast_S50000_S50000x1_0 s)) shapeCasts_S50000x1_S50000
      = Host.tanh s := by
  funext i
  obtain ⟨n, rfl⟩ : ∃ n : Fin 50000, i = ix1 n := ⟨i 0, eq_ix1 i⟩
  refine (shapeCast_apply _ shapeCasts_S50000x1_S50000 (ix1 n) (ix2 n (0 : Fin 1)) (by
    rw [Shape.rowMajor_val_two, Shape.rowMajor_val_one]
    show n.val * 1 + 0 = n.val
    omega)).trans ?_
  show Ideal.tanh (broadcastInDim S50000x1 ![0] bcast_S50000_S50000x1_0 s (ix2 n (0 : Fin 1))) = _
  rw [column_apply]
  rfl

end Cert.Hand

end
-- ==== Proof.Assemble.lean ====
/-
  The two idealized programs compute the same two results.

  Both form, for every node, the pre-activation score `s`: the mean over the node's incoming edges of the edge
  messages, plus the node's root projection, plus the bias. The kernel program reads an edge's message out of a
  projected table (source node, relation) whose entry is the sum over the 256 features of feature × relation weight;
  the reference forms that same sum per edge directly. The root projection is the table's last column on one side and
  a matrix-vector product on the other: the same sum. From equal scores the results are `tanh s` and the features
  scaled by it, entry by entry. No step uses finiteness of the inputs: every sum and product is the same expression
  of extended reals on both sides.
-/
import proofs.«117722_j22179211117211_1_alg».proof.Defs
import proofs.«117722_j22179211117211_1_alg».proof.Proof.Gen.ReferenceIdeal.Run
import proofs.«117722_j22179211117211_1_alg».proof.Proof.Gen.Pre_finite_inputs
import proofs.«117722_j22179211117211_1_alg».proof.Proof.KRun
import proofs.«117722_j22179211117211_1_alg».proof.Proof.HostK
import proofs.«117722_j22179211117211_1_alg».proof.Proof.Blocks0
import proofs.«117722_j22179211117211_1_alg».proof.Proof.Blocks1
import proofs.«117722_j22179211117211_1_alg».proof.Proof.Bridge
import proofs.«117722_j22179211117211_1_alg».proof.Proof.Pointwise

set_option maxRecDepth 16384

noncomputable section

namespace Cert.Hand

open Idealize.ShloMosaic Idealize.ShloMosaic.TcCoe Idealize.SL.Sem
open Cert.KernelIdeal.HostVals Cert.ReferenceIdeal.RefVals

/-- The kernel program's score of every node, from the six arguments. -/
def scoreK (x : FVec Ideal Cert.KernelIdeal.S50000x256 .f32) (ei : IVec Cert.KernelIdeal.S2x800000 32)
    (et : IVec Cert.KernelIdeal.S800000 32) (w3 : FVec Ideal Cert.KernelIdeal.S16x256x1 .f32)
    (root : FVec Ideal Cert.KernelIdeal.S256x1 .f32) (bias : FVec Ideal Cert.KernelIdeal.S1 .f32) :
    FVec Ideal Cert.KernelIdeal.S50000 .f32 :=
  scoreOf (msgK (proj x (wcat w3 root)) (edgeRow0 ei) et) (edgeRow1 ei) (xrootK (proj x (wcat w3 root))) bias

/-- The reference's. -/
def scoreR (x : FVec Ideal Cert.ReferenceIdeal.S50000x256 .f32) (ei : IVec Cert.ReferenceIdeal.S2x800000 32)
    (et : IVec Cert.ReferenceIdeal.S800000 32) (w3 : FVec Ideal Cert.ReferenceIdeal.S16x256x1 .f32)
    (root : FVec Ideal Cert.ReferenceIdeal.S256x1 .f32) (bias : FVec Ideal Cert.ReferenceIdeal.S1 .f32) :
    FVec Ideal Cert.ReferenceIdeal.S50000 .f32 :=
  scoreOf (msgR x w3 (edgeRow0 ei) et) (edgeRow1 ei) (xrootR x root) bias

/-- The two scores are one: the messages agree edge by edge and the root projections node by node. -/
theorem score_eq (x : FVec Ideal Cert.KernelIdeal.S50000x256 .f32) (ei : IVec Cert.KernelIdeal.S2x800000 32)
    (et : IVec Cert.KernelIdeal.S800000 32) (w3 : FVec Ideal Cert.KernelIdeal.S16x256x1 .f32)
    (root : FVec Ideal Cert.KernelIdeal.S256x1 .f32) (bias : FVec Ideal Cert.KernelIdeal.S1 .f32) :
    scoreK x ei et w3 root bias = scoreR x ei et w3 root bias := by
  unfold scoreK scoreR
  rw [msg_bridge, xroot_bridge]

section KernelRun

open Cert.KernelIdeal Cert.KernelIdeal.Gen Cert.KernelIdeal.HandRun Cert.KernelIdeal.Blocks

variable (m : (ℓ : Loc nD τ sig) → Buf (Elt Ideal) ℓ) (ρ : Dev nD → PrngReg)

/-- The kernel program's score column from its launch memory. -/
abbrev colK (c : Dev nD) : FVec Ideal S50000x1 .f32 :=
  broadcastInDim S50000x1 ![0] bcast_S50000_S50000x1_0
    (scoreK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))

theorem V1_arg0 (c : Dev nD) : V1 m ρ c main_arg0 = m ((c : Thread nD τ).loc main_arg0) := W1_arg0 m ρ c
theorem V1_v6 (c : Dev nD) : V1 m ρ c main_v6 = wcat (m ((c : Thread nD τ).loc main_arg3)) (m ((c : Thread nD τ).loc main_arg4)) :=
  W1_v6 m ρ c

/-- The projected table the first call leaves. -/
theorem table_eq (c : Dev nD) : (dat0 (V1 m ρ) c).arrAt 2 cfg0.N
    = proj (m ((c : Thread nD τ).loc main_arg0)) (wcat (m ((c : Thread nD τ).loc main_arg3)) (m ((c : Thread nD τ).loc main_arg4))) := by
  rw [proj_final (V1 m ρ) c, V1_arg0, V1_v6]

/-- The score column the second call reads. -/
theorem column_eq (c : Dev nD) : V3 m ρ c main_v39 = colK m c := by
  rw [V3_v39, table_eq]
  rfl

theorem out0_eq (c : Dev nD) : W5 m ρ c (Proc.devRef .tc main_v40_0) = scaled (m ((c : Thread nD τ).loc main_arg0)) (colK m c) := by
  rw [res0_eq, scaled_final (V3 m ρ) c, V3_arg0, column_eq]

theorem out1_eq (c : Dev nD) : W5 m ρ c (Proc.devRef .tc main_v41)
    = shapeCast _ (tanhCol (colK m c)) shapeCasts_S50000x1_S50000 := by
  rw [res1_eq, tanh_final (V3 m ρ) c, column_eq]

/-- The kernel program's run in closed form. -/
theorem kernel_run : θ_run defs (onTc (τ := τ) (main (F := Ideal))) ⟨m, fun _ => 0, ρ⟩ (fun r => ∀ c : Dev nD,
      r.2.mem ((c.tc : Thread nD τ).loc main_v40_0) = scaled (m ((c : Thread nD τ).loc main_arg0)) (colK m c)
      ∧ r.2.mem ((c.tc : Thread nD τ).loc main_v41) = shapeCast _ (tanhCol (colK m c)) shapeCasts_S50000x1_S50000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out0_eq m ρ c), (h c).2.1.trans (out1_eq m ρ c), (h c).2.2⟩)
    (run_named m ρ)

end KernelRun

section ReferenceRun

open Cert.ReferenceIdeal Cert.ReferenceIdeal.Gen

variable (m : (ℓ : Loc nD τ sig) → Buf (Elt Ideal) ℓ) (ρ : Dev nD → PrngReg)

/-- The reference's score from its launch memory. -/
abbrev sR (c : Dev nD) : FVec Ideal S50000 .f32 :=
  scoreR (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's run, its two results over the score. -/
theorem reference_run : θ_run defs (onTc (τ := τ) (main (F := Ideal))) ⟨m, fun _ => 0, ρ⟩ (fun r => ∀ c : Dev nD,
      r.2.mem ((c.tc : Thread nD τ).loc main_v43) = mulf (m ((c.tc : Thread nD τ).loc main_arg0))
          (broadcastInDim S50000x256 ![0, 1] bcast_S50000x1_S50000x256_0_1
            (broadcastInDim S50000x1 ![0] bcast_S50000_S50000x1_0 (Host.tanh (sR m c))))
      ∧ r.2.mem ((c.tc : Thread nD τ).loc main_v40) = Host.tanh (sR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.ReferenceIdeal.Value.run (F := Ideal) m ρ

end ReferenceRun

end Cert.Hand

namespace Cert.Proof.Claims

open Idealize.ShloMosaic Idealize.ShloMosaic.TcCoe Idealize.SL.Sem Cert.Hand

/-- From memories agreeing on the six arguments both programs end with the features scaled by `tanh` of one score,
    and that `tanh` itself. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ?_) (reference_run m' ρ')
  obtain ⟨e0, e1, e2, e3, e4, e5⟩ := hagree c
  refine ⟨(h c).1.trans ?_, (h c).2.1.trans ?_, (h c).2.2⟩
  · unfold sR colK
    rw [e0, e1, e2, e3, e4, e5, score_eq]
    exact scaled_eq _ _
  · unfold sR colK
    rw [e0, e1, e2, e3, e4, e5, score_eq]
    exact (tanh_eq _).symm

end Cert.Proof.Claims

end
-- ==== Proof.lean ====
/-
  The certificate of a relational graph layer: per-relation projection, scatter-mean over incoming edges, root
  projection and bias, `tanh`, and the features scaled by the activated score.

  The kernel program projects every node through seventeen weight columns in one pipelined call (sixteen relation
  columns and the root column), reads each edge's message out of the projected table on the host, forms the mean per
  destination node, and applies `tanh` and the scaling in a second pipelined call. The reference forms each edge's
  message as a 256-term sum directly. On extended reals both are the same sums, so the two programs' results are equal
  entry by entry (`Claims.algebraic`). The three frame claims are the generated frames of the two kernel programs and the
  reference's generated run with its results dropped. The idealization rewrote no operation, so the preservation claim is trivial.
-/
import proofs.«117722_j22179211117211_1_alg».proof.Defs
import proofs.«117722_j22179211117211_1_alg».proof.Proof.Gen.Kernel
import proofs.«117722_j22179211117211_1_alg».proof.Proof.Gen.Kernel.Skeleton
import proofs.«117722_j22179211117211_1_alg».proof.Proof.Gen.Kernel.Launch
import proofs.«117722_j22179211117211_1_alg».proof.Proof.Gen.Kernel.Points
import proofs.«117722_j22179211117211_1_alg».proof.Proof.Gen.Kernel.Frame
import proofs.«117722_j22179211117211_1_alg».proof.Proof.Gen.KernelIdeal
import proofs.«117722_j22179211117211_1_alg».proof.Proof.Gen.KernelIdeal.Skeleton
import proofs.«117722_j22179211117211_1_alg».proof.Proof.Gen.KernelIdeal.Launch
import proofs.«117722_j22179211117211_1_alg».proof.Proof.Gen.KernelIdeal.Points
import proofs.«117722_j22179211117211_1_alg».proof.Proof.Gen.KernelIdeal.Frame
import proofs.«117722_j22179211117211_1_alg».proof.Proof.Gen.ReferenceIdeal
import proofs.«117722_j22179211117211_1_alg».proof.Proof.Gen.ReferenceIdeal.Run
import proofs.«117722_j22179211117211_1_alg».proof.Proof.Gen.ReferenceIdeal.Read
import proofs.«117722_j22179211117211_1_alg».proof.Proof.Gen.Pre_finite_inputs
import proofs.«117722_j22179211117211_1_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Claims.algebraic⟩

end Cert.Proof

end
